-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5x16x11x128x128 : Shape := ⟨5, ![5, 16, 11, 128, 128]⟩
abbrev S5x16x11x7 : Shape := ⟨4, ![5, 16, 11, 7]⟩
abbrev S16x11x7 : Shape := ⟨3, ![16, 11, 7]⟩
abbrev S_ : Shape := ⟨0, ![]⟩

class Facts : Prop where
  bcast_S_S5x16x11x128x128 : S_.BroadcastsInDim S5x16x11x128x128 (![] : Fin 0 → Fin S5x16x11x128x128.rank)
  reducesTo_S5x16x11x128x128_S_d0_1_2_3_4 : S5x16x11x128x128.ReducesTo [0, 1, 2, 3, 4] S_
  h_S_ : 0 < S_.numel
  bcast_S_S5x16x11x7 : S_.BroadcastsInDim S5x16x11x7 (![] : Fin 0 → Fin S5x16x11x7.rank)
  reducesTo_S5x16x11x7_S_d0_1_2_3 : S5x16x11x7.ReducesTo [0, 1, 2, 3] S_
  bcast_S_S16x11x7 : S_.BroadcastsInDim S16x11x7 (![] : Fin 0 → Fin S16x11x7.rank)
  reducesTo_S16x11x7_S_d0_1_2 : S16x11x7.ReducesTo [0, 1, 2] S_

variable [Facts]

def fn_part1 {F : FTy → Type} [FloatOps F] (main_v13 : IVec S_ 1) (main_v16 : IVec S16x11x7 1) : IVec S_ 1 :=
  let main_c_5 : IVec S_ 1 := constantI S_ 1 1#1
  let main_v17 : IVec S_ 1 := (fun x v => Host.reduce IntOp.andi x v reducesTo_S16x11x7_S_d0_1_2 h_S_) main_v16 main_c_5
  let main_v18 : IVec S_ 1 := andi main_v13 main_v17
  main_v18

def fn {F : FTy → Type} [FloatOps F] (main_arg0 : FVec F S5x16x11x128x128 .f32) (main_arg1 : FVec F S5x16x11x128x128 .f32) (main_arg2 : FVec F S5x16x11x7 .f32) (main_arg3 : FVec F S16x11x7 .f32) : IVec S_ 1 :=
  let main_v0 : FVec F S5x16x11x128x128 .f32 := Host.absf main_arg0
  let main_cst : FVec F S_ .f32 := constant S_ .f32 0x7F800000#32
  let main_v1 : FVec F S5x16x11x128x128 .f32 := broadcastInDim S5x16x11x128x128 ![] bcast_S_S5x16x11x128x128 main_cst
  let main_v2 : IVec S5x16x11x128x128 1 := cmpf .olt main_v0 main_v1
  let main_c : IVec S_ 1 := constantI S_ 1 1#1
  let main_v3 : IVec S_ 1 := (fun x v => Host.reduce IntOp.andi x v reducesTo_S5x16x11x128x128_S_d0_1_2_3_4 h_S_) main_v2 main_c
  let main_v4 : FVec F S5x16x11x128x128 .f32 := Host.absf main_arg1
  let main_cst_0 : FVec F S_ .f32 := constant S_ .f32 0x7F800000#32
  let main_v5 : FVec F S5x16x11x128x128 .f32 := broadcastInDim S5x16x11x128x128 ![] bcast_S_S5x16x11x128x128 main_cst_0
  let main_v6 : IVec S5x16x11x128x128 1 := cmpf .olt main_v4 main_v5
  let main_c_1 : IVec S_ 1 := constantI S_ 1 1#1
  let main_v7 : IVec S_ 1 := (fun x v => Host.reduce IntOp.andi x v reducesTo_S5x16x11x128x128_S_d0_1_2_3_4 h_S_) main_v6 main_c_1
  let main_v8 : IVec S_ 1 := andi main_v3 main_v7
  let main_v9 : FVec F S5x16x11x7 .f32 := Host.absf main_arg2
  let main_cst_2 : FVec F S_ .f32 := constant S_ .f32 0x7F800000#32
  let main_v10 : FVec F S5x16x11x7 .f32 := broadcastInDim S5x16x11x7 ![] bcast_S_S5x16x11x7 main_cst_2
  let main_v11 : IVec S5x16x11x7 1 := cmpf .olt main_v9 main_v10
  let main_c_3 : IVec S_ 1 := constantI S_ 1 1#1
  let main_v12 : IVec S_ 1 := (fun x v => Host.reduce IntOp.andi x v reducesTo_S5x16x11x7_S_d0_1_2_3 h_S_) main_v11 main_c_3
  let main_v13 : IVec S_ 1 := andi main_v8 main_v12
  let main_v14 : FVec F S16x11x7 .f32 := Host.absf main_arg3
  let main_cst_4 : FVec F S_ .f32 := constant S_ .f32 0x7F800000#32
  let main_v15 : FVec F S16x11x7 .f32 := broadcastInDim S16x11x7 ![] bcast_S_S16x11x7 main_cst_4
  let main_v16 : IVec S16x11x7 1 := cmpf .olt main_v14 main_v15
  fn_part1 (F := F) main_v13 main_v16
-- ==== Kernel.lean ====
abbrev S5x16x11x128x128 : Shape := ⟨5, ![5, 16, 11, 128, 128]⟩
abbrev S5x16x11x7 : Shape := ⟨4, ![5, 16, 11, 7]⟩
abbrev S16x11x7 : Shape := ⟨3, ![16, 11, 7]⟩
abbrev S5x16x11 : Shape := ⟨3, ![5, 16, 11]⟩
abbrev S1x8x11x128x128 : Shape := ⟨5, ![1, 8, 11, 128, 128]⟩
abbrev S1x8x11 : Shape := ⟨3, ![1, 8, 11]⟩
abbrev S8x11x128x128 : Shape := ⟨4, ![8, 11, 128, 128]⟩
abbrev S8x11x128 : Shape := ⟨3, ![8, 11, 128]⟩
abbrev S8x11 : Shape := ⟨2, ![8, 11]⟩
abbrev S_ : Shape := ⟨0, ![]⟩
abbrev S5x16 : Shape := ⟨2, ![5, 16]⟩
abbrev S16x5 : Shape := ⟨2, ![16, 5]⟩
abbrev S1x16x11x7 : Shape := ⟨4, ![1, 16, 11, 7]⟩

abbrev nBuf : Space → Nat
  | .hbm => 15
  | .vmem => 6
  | .smem => 0
  | _ => 0

abbrev bufTy : (tb : Table) → Fin (tcTables nBuf tb) → BufTy
  | .hbm, ⟨0, _⟩ => ⟨S5x16x11x128x128, .f32⟩
  | .hbm, ⟨1, _⟩ => ⟨S5x16x11x128x128, .f32⟩
  | .hbm, ⟨2, _⟩ => ⟨S5x16x11x7, .f32⟩
  | .hbm, ⟨3, _⟩ => ⟨S16x11x7, .f32⟩
  | .hbm, ⟨4, _⟩ => ⟨S5x16x11, .f32⟩
  | .hbm, ⟨5, _⟩ => ⟨S_, .f32⟩
  | .hbm, ⟨6, _⟩ => ⟨S5x16, .f32⟩
  | .hbm, ⟨7, _⟩ => ⟨S16x5, .f32⟩
  | .hbm, ⟨8, _⟩ => ⟨S1x16x11x7, .f32⟩
  | .hbm, ⟨9, _⟩ => ⟨S5x16x11x7, .f32⟩
  | .hbm, ⟨10, _⟩ => ⟨S5x16x11x7, .f32⟩
  | .hbm, ⟨11, _⟩ => ⟨S5x16x11x7, .f32⟩
  | .hbm, ⟨12, _⟩ => ⟨S_, .f32⟩
  | .hbm, ⟨13, _⟩ => ⟨S5x16, .f32⟩
  | .hbm, ⟨14, _⟩ => ⟨S16x5, .f32⟩
  | .local _ .vmem, ⟨0, _⟩ => ⟨S1x8x11x128x128, .f32⟩
  | .local _ .vmem, ⟨1, _⟩ => ⟨S1x8x11x128x128, .f32⟩
  | .local _ .vmem, ⟨2, _⟩ => ⟨S1x8x11x128x128, .f32⟩
  | .local _ .vmem, ⟨3, _⟩ => ⟨S1x8x11x128x128, .f32⟩
  | .local _ .vmem, ⟨4, _⟩ => ⟨S1x8x11, .f32⟩
  | .local _ .vmem, ⟨5, _⟩ => ⟨S1x8x11, .f32⟩
  | _, _ => ⟨S5x16x11x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![5, 2], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x11x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x11x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x11 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x8x11x128x128_S1x8x11x128x128_0_0_0_0_0 : ∀ a, (![0, 0, 0, 0, 0] : Fin 5 → Nat) a + S1x8x11x128x128.size a ≤ S1x8x11x128x128.size a
  h_S1x8x11x128x128 : 0 < S1x8x11x128x128.numel
  shapeCasts_S1x8x11x128x128_S8x11x128x128 : S1x8x11x128x128.ShapeCasts S8x11x128x128
  reduces_S8x11x128x128_S8x11x128 : S8x11x128x128.Reduces [2] S8x11x128
  reduces_S8x11x128_S8x11 : S8x11x128.Reduces [2] S8x11
  inb_S1x8x11_S1x8x11_0_0_0 : ∀ a, (![0, 0, 0] : Fin 3 → Nat) a + S1x8x11.size a ≤ S1x8x11.size a
  h_S1x8x11 : 0 < S1x8x11.numel
  shapeCasts_S1x8x11_S8x11 : S1x8x11.ShapeCasts S8x11
  shapeCasts_S8x11_S1x8x11 : S8x11.ShapeCasts S1x8x11
  reducesTo_S5x16x11_S5x16_d2 : S5x16x11.ReducesTo [2] S5x16
  h_S_ : 0 < S_.numel
  transposes_S5x16_S16x5_1_0 : S5x16.Transposes [1, 0] S16x5
  bcast_S16x11x7_S1x16x11x7_1_2_3 : S16x11x7.BroadcastsInDim S1x16x11x7 (![1, 2, 3] : Fin 3 → Fin S1x16x11x7.rank)
  bcast_S1x16x11x7_S5x16x11x7_0_1_2_3 : S1x16x11x7.BroadcastsInDim S5x16x11x7 (![0, 1, 2, 3] : Fin 4 → Fin S5x16x11x7.rank)
  reducesTo_S5x16x11x7_S5x16_d2_3 : S5x16x11x7.ReducesTo [2, 3] S5x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x11x128x128.size a ≤ S5x16x11x128x128.size a
  hwx0_0 : ∀ i : grid0.Coords, EltTy.bits .f32 = 32 ∨ (Rect.block (s := S5x16x11x128x128) S1x8x11x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8x11x128x128.size a ≤ S5x16x11x128x128.size a
  hwx0_1 : ∀ i : grid0.Coords, EltTy.bits .f32 = 32 ∨ (Rect.block (s := S5x16x11x128x128) S1x8x11x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x11.size a ≤ S5x16x11.size a
  hwx0_2 : ∀ i : grid0.Coords, EltTy.bits .f32 = 32 ∨ (Rect.block (s := S5x16x11) S1x8x11.size (cc0_transform_2 i) (hinb0_2 i)).WholeWords (EltTy.packing .f32)

variable [Facts₀]

abbrev win0_0 : Pipeline.Window sig grid0 :=
  Pipeline.Window.ofSpec (Memref.whole main_arg0) S1x8x11x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8x11x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x11.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S5x16x11x128x128 : Shape := ⟨5, ![5, 16, 11, 128, 128]⟩
abbrev S5x16x11x7 : Shape := ⟨4, ![5, 16, 11, 7]⟩
abbrev S16x11x7 : Shape := ⟨3, ![16, 11, 7]⟩
abbrev S_ : Shape := ⟨0, ![]⟩
abbrev S5x16x11 : Shape := ⟨3, ![5, 16, 11]⟩
abbrev S5x16 : Shape := ⟨2, ![5, 16]⟩
abbrev S16x5 : Shape := ⟨2, ![16, 5]⟩
abbrev S1x16x11x7 : Shape := ⟨4, ![1, 16, 11, 7]⟩

abbrev nBuf : Space → Nat
  | .hbm => 21
  | .vmem => 0
  | .smem => 0
  | _ => 0

abbrev bufTy : (tb : Table) → Fin (tcTables nBuf tb) → BufTy
  | .hbm, ⟨0, _⟩ => ⟨S5x16x11x128x128, .f32⟩
  | .hbm, ⟨1, _⟩ => ⟨S5x16x11x128x128, .f32⟩
  | .hbm, ⟨2, _⟩ => ⟨S5x16x11x7, .f32⟩
  | .hbm, ⟨3, _⟩ => ⟨S16x11x7, .f32⟩
  | .hbm, ⟨4, _⟩ => ⟨S5x16x11x128x128, .f32⟩
  | .hbm, ⟨5, _⟩ => ⟨S5x16x11x128x128, .f32⟩
  | .hbm, ⟨6, _⟩ => ⟨S_, .f32⟩
  | .hbm, ⟨7, _⟩ => ⟨S5x16x11, .f32⟩
  | .hbm, ⟨8, _⟩ => ⟨S_, .f32⟩
  | .hbm, ⟨9, _⟩ => ⟨S5x16x11, .f32⟩
  | .hbm, ⟨10, _⟩ => ⟨S5x16x11, .f32⟩
  | .hbm, ⟨11, _⟩ => ⟨S_, .f32⟩
  | .hbm, ⟨12, _⟩ => ⟨S5x16, .f32⟩
  | .hbm, ⟨13, _⟩ => ⟨S16x5, .f32⟩
  | .hbm, ⟨14, _⟩ => ⟨S1x16x11x7, .f32⟩
  | .hbm, ⟨15, _⟩ => ⟨S5x16x11x7, .f32⟩
  | .hbm, ⟨16, _⟩ => ⟨S5x16x11x7, .f32⟩
  | .hbm, ⟨17, _⟩ => ⟨S5x16x11x7, .f32⟩
  | .hbm, ⟨18, _⟩ => ⟨S_, .f32⟩
  | .hbm, ⟨19, _⟩ => ⟨S5x16, .f32⟩
  | .hbm, ⟨20, _⟩ => ⟨S16x5, .f32⟩
  | _, _ => ⟨S5x16x11x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]

class Facts₀ : Prop where
  reducesTo_S5x16x11x128x128_S5x16x11_d3_4 : S5x16x11x128x128.ReducesTo [3, 4] S5x16x11
  h_S_ : 0 < S_.numel
  bcast_S_S5x16x11 : S_.BroadcastsInDim S5x16x11 (![] : Fin 0 → Fin S5x16x11.rank)
  reducesTo_S5x16x11_S5x16_d2 : S5x16x11.ReducesTo [2] S5x16
  transposes_S5x16_S16x5_1_0 : S5x16.Transposes [1, 0] S16x5
  bcast_S16x11x7_S1x16x11x7_1_2_3 : S16x11x7.BroadcastsInDim S1x16x11x7 (![1, 2, 3] : Fin 3 → Fin S1x16x11x7.rank)
  bcast_S1x16x11x7_S5x16x11x7_0_1_2_3 : S1x16x11x7.BroadcastsInDim S5x16x11x7 (![0, 1, 2, 3] : Fin 4 → Fin S5x16x11x7.rank)
  reducesTo_S5x16x11x7_S5x16_d2_3 : S5x16x11x7.ReducesTo [2, 3] S5x16

variable [Facts₀]

class Facts : Prop extends Facts₀ where

variable [Facts]
-- ==== Proof.LibSumLastTwo.lean ====
/-
  A host sum over the LAST TWO axes of a rank-5 array, read at an index of the rank-3 result on the extended reals:
  the initial value plus the double sum over the two dropped coordinates, with the three kept coordinates held.
  The indices that drop to a result index `j` are exactly the `ix5 (j 0) (j 1) (j 2) p q`, so the sum over them
  re-indexes along `(p, q)`.  Also the same array summed by two one-axis vector reductions (axis 2 of a rank-4
  array, then axis 2 of the rank-3 result): the indices the two lifts insert are `ix4 b c p q`.
-/
import Idealize.ShloMosaic.PureOps.Ideal
import Idealize.ShloMosaic.PureOps.Ideal.Laws
import Idealize.ShloMosaic.Lib.ValueIdx

noncomputable section

namespace Cert.LibSumLastTwo

open Idealize.ShloMosaic Idealize.ShloMosaic.ValueIdx

/-- `stablehlo.reduce … add` across dimensions `[3, 4]` of a rank-5 array at the ideal values, at result index `j`:
    the initial value plus `∑ p, ∑ q` of the operand at `(j 0, j 1, j 2, p, q)`. -/
theorem hostReduceAdd_last2 {n0 n1 n2 n3 n4 : Nat}
    (h' : (⟨5, ![n0, n1, n2, n3, n4]⟩ : Shape).ReducesTo [3, 4] ⟨3, ![n0, n1, n2]⟩)
    (x : (⟨5, ![n0, n1, n2, n3, n4]⟩ : Shape).Idx → EReal) (init : EReal) (j : (⟨3, ![n0, n1, n2]⟩ : Shape).Idx) :
    Ideal.hostReduceAdd h' x init j
      = init + ∑ p : Fin n3, ∑ q : Fin n4, x (ix5 (n0 := n0) (n1 := n1) (n2 := n2) (j 0) (j 1) (j 2) p q) := by
  unfold Ideal.hostReduceAdd
  refine congrArg (init + ·) ?_
  rw [← Finset.sum_product']
  refine Finset.sum_nbij' (fun i => ((i 3 : Fin n3), (i 4 : Fin n4)))
    (fun pq => ix5 (n0 := n0) (n1 := n1) (n2 := n2) (j 0) (j 1) (j 2) pq.1 pq.2) ?_ ?_ ?_ ?_ ?_
  · intro i _; exact Finset.mem_product.2 ⟨Finset.mem_univ _, Finset.mem_univ _⟩
  · intro pq _
    refine Finset.mem_filter.2 ⟨Finset.mem_univ _, ?_⟩
    funext b; apply Fin.ext
    match b with
    | ⟨0, _⟩ => rfl
    | ⟨1, _⟩ => rfl
    | ⟨2, _⟩ => rfl
  · intro i hi
    have hj := (Finset.mem_filter.1 hi).2
    subst hj
    funext a; apply Fin.ext
    match a with
    | ⟨0, _⟩ => rfl
    | ⟨1, _⟩ => rfl
    | ⟨2, _⟩ => rfl
    | ⟨3, _⟩ => rfl
    | ⟨4, _⟩ => rfl
  · intro pq _; rfl
  · intro i hi
    have hj := (Finset.mem_filter.1 hi).2
    subst hj
    refine congrArg x ?_
    funext a; apply Fin.ext
    match a with
    | ⟨0, _⟩ => rfl
    | ⟨1, _⟩ => rfl
    | ⟨2, _⟩ => rfl
    | ⟨3, _⟩ => rfl
    | ⟨4, _⟩ => rfl

/-- Two `vector.multi_reduction <add>` over ONE axis each — axis 2 of a rank-4 array, then axis 2 of the rank-3
    result — at the ideal values, read at `(b, c)`: `∑ q, ∑ p` of the source at `(b, c, p, q)` (the inner sum runs over
    the axis reduced FIRST). -/
theorem multiReduction_add_axis2_twice {n0 n1 n2 n3 : Nat} {φ : FTy}
    (src : FVec Ideal ⟨4, ![n0, n1, n2, n3]⟩ φ) (acc : BitVec φ.bits)
    (h1 : (⟨4, ![n0, n1, n2, n3]⟩ : Shape).Reduces [2] ⟨3, ![n0, n1, n3]⟩)
    (h2 : (⟨3, ![n0, n1, n3]⟩ : Shape).Reduces [2] ⟨2, ![n0, n1]⟩)
    (hφ : FKind.Formats φ) (hacc : acc = FKind.add.neutral φ hφ) (b : Fin n0) (c : Fin n1) :
    multiReduction .add [2] ⟨2, ![n0, n1]⟩ (multiReduction .add [2] ⟨3, ![n0, n1, n3]⟩ src acc h1 hφ hacc) acc h2 hφ hacc (ix2 b c)
      = ∑ q : Fin n3, ∑ p : Fin n2, src (ix4 b c p q) := by
  refine (Ideal.multiReduction_add_single _ acc h2 hφ hacc (ix2 b c)).trans ?_
  refine Finset.sum_congr rfl fun q _ => ?_
  refine (Ideal.multiReduction_add_single src acc h1 hφ hacc _).trans ?_
  refine Finset.sum_congr rfl fun p _ => congrArg src ?_
  funext a; apply Fin.ext
  match a with
  | ⟨0, _⟩ => rfl
  | ⟨1, _⟩ => rfl
  | ⟨2, _⟩ => rfl
  | ⟨3, _⟩ => rfl

end Cert.LibSumLastTwo

end
-- ==== Proof.KernelCell.lean ====
/-
  What the kernel body stores at one element of its output block, at the ideal values.  The body loads the two
  [1, 8, 11, 128, 128] blocks, drops the leading unit axis, squares the difference, sums the rows of each map
  (axis 2 of [8, 11, 128, 128]), then the resulting column sums (axis 2 of [8, 11, 128]), multiplies by the float
  2⁻¹⁴ and stores the [8, 11] result as a [1, 8, 11] block.  So the block's element (0, b, c) is

      (∑ q, ∑ p, (x0 (0,b,c,p,q) - x1 (0,b,c,p,q))²) · 2⁻¹⁴ .
-/
import proofs.«116545_j51866025066626_2_alg».proof.Proof.Gen.KernelIdeal.Skeleton
import proofs.«116545_j51866025066626_2_alg».proof.Proof.LibSumLastTwo
import Idealize.ShloMosaic.Lib.Pipeline.Value
import Idealize.ShloMosaic.Lib.ValueIdx
import Idealize.ShloMosaic.PureOps.Ideal.Laws

noncomputable section

namespace Cert.KernelIdeal.HeatValue

open Idealize.ShloMosaic Idealize.ShloMosaic.ValueIdx Cert.KernelIdeal Cert.KernelIdeal.Gen

/-- The [1, 8, 11] block index (0, b, c) without its unit axis is (b, c). -/
theorem tail_ix3 (b : Fin 8) (c : Fin 11) :
    (fun a : Fin 2 => (ix3 (0 : Fin 1) b c) a.succ) = ix2 b c :=
  funext fun a => by match a with | ⟨0, _⟩ => rfl | ⟨1, _⟩ => rfl

/-- The [8, 11, 128, 128] index (b, c, p, q) under a leading unit axis is (0, b, c, p, q). -/
theorem cons_ix4 (b : Fin 8) (c : Fin 11) (p q : Fin 128) :
    (Fin.cons (⟨0, Nat.one_pos⟩ : Fin 1) (ix4 b c p q) : S1x8x11x128x128.Idx) = ix5 (0 : Fin 1) b c p q :=
  funext fun a => by
    match a with
    | ⟨0, _⟩ => rfl
    | ⟨1, _⟩ => rfl
    | ⟨2, _⟩ => rfl
    | ⟨3, _⟩ => rfl
    | ⟨4, _⟩ => rfl

/-- The stored block at (0, b, c): the column sums of the squared differences, summed, times the float 2⁻¹⁴. -/
theorem pay_apply (x0 x1 : Vec Ideal S1x8x11x128x128 .f32) (b : Fin 8) (c : Fin 11) :
    k0_pay1 (F := Ideal) x0 x1 (ix3 (0 : Fin 1) b c)
      = (∑ q : Fin 128, ∑ p : Fin 128,
          (x0 (ix5 (0 : Fin 1) b c p q) - x1 (ix5 (0 : Fin 1) b c p q)) * (x0 (ix5 (0 : Fin 1) b c p q) - x1 (ix5 (0 : Fin 1) b c p q)))
        * Ideal.ofBits .f32 0x38800000#32 := by
  unfold k0_pay1
  refine (shapeCast_addUnit_apply ![8, 11] _ _ (ix3 (0 : Fin 1) b c)).trans ?_
  rw [tail_ix3]
  refine congrArg (· * Ideal.ofBits .f32 0x38800000#32) ?_
  refine (Cert.LibSumLastTwo.multiReduction_add_axis2_twice _ _ _ _ _ _ b c).trans ?_
  refine Finset.sum_congr rfl fun q _ => Finset.sum_congr rfl fun p _ => ?_
  have e0 := (shapeCast_dropUnit_apply ![8, 11, 128, 128] x0 shapeCasts_S1x8x11x128x128_S8x11x128x128 (ix4 b c p q)).trans
    (congrArg x0 (cons_ix4 b c p q))
  have e1 := (shapeCast_dropUnit_apply ![8, 11, 128, 128] x1 shapeCasts_S1x8x11x128x128_S8x11x128x128 (ix4 b c p q)).trans
    (congrArg x1 (cons_ix4 b c p q))
  exact congrArg₂ (fun u v : EReal => (u - v) * (u - v)) e0 e1

end Cert.KernelIdeal.HeatValue

end
-- ==== Proof.MeanSquare.lean ====
/-
  The heat-map loss per (stack, batch, channel) cell, as ONE function of the two argument arrays on the extended reals:
  the mean over the 128 × 128 map of the squared difference,

      meanSq a0 a1 (s, b, c) = (∑ p, ∑ q, (a0 (s,b,c,p,q) - a1 (s,b,c,p,q))²) / 16384 .

  One program sums the columns first, then the column sums, and multiplies by the float 2⁻¹⁴; the other sums over both
  axes at once, from the float zero, and divides by the float 16384. Addition of extended reals is commutative and
  associative (so the order of a finite sum does not matter, infinities included), and division by the real 16384 IS
  the product with its reciprocal 2⁻¹⁴ on every extended real: the two agree with no finiteness assumption.
-/
import Idealize.ShloMosaic.PureOps.Ideal
import Idealize.ShloMosaic.PureOps.Ideal.Laws
import Idealize.ShloMosaic.Lib.ValueIdx

noncomputable section

namespace Cert.HeatLoss

open Idealize.ShloMosaic Idealize.ShloMosaic.ValueIdx

/-- The two heat-map arrays' shape: stacks × batch × channels × rows × columns. -/
abbrev Maps : Shape := ⟨5, ![5, 16, 11, 128, 128]⟩
/-- One cell per (stack, batch, channel). -/
abbrev Cells : Shape := ⟨3, ![5, 16, 11]⟩

/-- The squared difference of the two arrays at one element. -/
def sqDiff (a0 a1 : Maps.Idx → EReal) (i : Maps.Idx) : EReal := (a0 i - a1 i) * (a0 i - a1 i)

/-- The mean squared difference over the map of cell `(s, b, c)`. -/
def cell (a0 a1 : Maps.Idx → EReal) (s : Fin 5) (b : Fin 16) (c : Fin 11) : EReal :=
  Ideal.div (∑ p : Fin 128, ∑ q : Fin 128, sqDiff a0 a1 (ix5 s b c p q)) ((16384 : ℝ) : EReal)

/-- The array of the cells' mean squared differences. -/
def meanSq (a0 a1 : Maps.Idx → EReal) : Cells.Idx → EReal := fun j => cell a0 a1 (j 0) (j 1) (j 2)

/-- The float `16384.0` denotes the real 16384 = 2¹⁴. -/
theorem ofBits_16384 : Ideal.ofBits .f32 0x46800000#32 = ((16384 : ℝ) : EReal) := by
  simp [Ideal.ofBits, Ideal.ieee, -EReal.coe_mul]; norm_num

/-- The float `6.10351563e-5` denotes the real 1/16384 = 2⁻¹⁴ exactly. -/
theorem ofBits_inv_16384 : Ideal.ofBits .f32 0x38800000#32 = ((1 / 16384 : ℝ) : EReal) := by
  simp [Ideal.ofBits, Ideal.ieee, -EReal.coe_mul]; norm_num

/-- Columns first, then the column sums, times the float 2⁻¹⁴: the cell's mean. -/
theorem colsums_scaled_eq_cell (a0 a1 : Maps.Idx → EReal) (s : Fin 5) (b : Fin 16) (c : Fin 11) :
    (∑ q : Fin 128, ∑ p : Fin 128, sqDiff a0 a1 (ix5 s b c p q)) * Ideal.ofBits .f32 0x38800000#32 = cell a0 a1 s b c := by
  unfold cell
  rw [ofBits_inv_16384, Ideal.div_coe (by norm_num : (16384 : ℝ) ≠ 0), Finset.sum_comm]

/-- Both axes at once from the float zero, divided by the float 16384: the cell's mean. -/
theorem total_div_eq_cell (a0 a1 : Maps.Idx → EReal) (s : Fin 5) (b : Fin 16) (c : Fin 11) :
    Ideal.div (Ideal.ofBits .f32 0x00000000#32 + ∑ p : Fin 128, ∑ q : Fin 128, sqDiff a0 a1 (ix5 s b c p q))
      (Ideal.ofBits .f32 0x46800000#32) = cell a0 a1 s b c := by
  unfold cell
  rw [Ideal.ofBits_zero_f32, zero_add, ofBits_16384]

end Cert.HeatLoss

end
-- ==== Proof.KernelArray.lean ====
/-
  The array the region leaves.  Grid point `t` = (stack, batch tile) reads the [1, 8, 11, 128, 128] block of each
  heat-map array at block index (stack, tile, 0, 0, 0) and writes the [1, 8, 11] block of the [5, 16, 11] output at
  block index (stack, tile, 0): element (0, b', c) of that block is cell (stack, 8·tile + b', c), and the maps it
  reads are exactly the rows and columns of that cell.  So every point writes back its block of ONE array, the mean
  squared differences `meanSq`, and the ten blocks tile the output: after the run the array IS `meanSq` of the two
  argument arrays.
-/
import proofs.«116545_j51866025066626_2_alg».proof.Proof.Gen.KernelIdeal.Frame
import proofs.«116545_j51866025066626_2_alg».proof.Proof.KernelCell
import proofs.«116545_j51866025066626_2_alg».proof.Proof.MeanSquare
import Idealize.ShloMosaic.Lib.Pipeline.Value
import Idealize.ShloMosaic.Lib.ValueIdx

noncomputable section

namespace Cert.KernelIdeal.HeatValue

open Idealize.ShloMosaic Idealize.ShloMosaic.TcCoe Idealize.ShloMosaic.ValueIdx Idealize.SL.Sem
open Cert.KernelIdeal Cert.KernelIdeal.Gen Cert.HeatLoss
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros5 : (![0, 0, 0, 0, 0] : Fin 5 → Nat) = fun _ => 0 := funext fun a => by fin_cases a <;> rfl

/-- One element of the stored block is a cell's mean, whenever the two loaded blocks hold that cell's maps:
    for loaded blocks `x0`, `x1` whose elements at batch row `y 1` and channel `y 2` are the arrays' elements of
    cell `i` at the same row and column. -/
theorem stored_eq_cell (a0 a1 : Maps.Idx → EReal) (x0 x1 : Vec Ideal S1x8x11x128x128 .f32) (y : S1x8x11.Idx) (i : Cells.Idx)
    (h0 : ∀ (b : Fin 8) (c : Fin 11) (p q : Fin 128), b.val = (y 1).val → c.val = (y 2).val →
      x0 (ix5 (0 : Fin 1) b c p q) = a0 (ix5 (i 0) (i 1) (i 2) p q))
    (h1 : ∀ (b : Fin 8) (c : Fin 11) (p q : Fin 128), b.val = (y 1).val → c.val = (y 2).val →
      x1 (ix5 (0 : Fin 1) b c p q) = a1 (ix5 (i 0) (i 1) (i 2) p q)) :
    k0_pay1 (F := Ideal) x0 x1 y = meanSq a0 a1 i := by
  obtain ⟨z, b, c, rfl⟩ : ∃ (z : Fin 1) (b : Fin 8) (c : Fin 11), y = ix3 z b c := ⟨y 0, y 1, y 2, eq_ix3 y⟩
  obtain rfl : z = 0 := Subsingleton.elim _ _
  rw [pay_apply]
  refine Eq.trans ?_ (colsums_scaled_eq_cell a0 a1 (i 0) (i 1) (i 2))
  refine congrArg (· * Ideal.ofBits .f32 0x38800000#32) ?_
  refine Finset.sum_congr rfl fun q _ => Finset.sum_congr rfl fun p _ => ?_
  unfold sqDiff
  rw [h0 b c p q rfl rfl, h1 b c p q rfl rfl]

/-- The printed index maps, decided over the ten grid points: both inputs' blocks sit at the output block's
    (stack, tile) and at zero on the channel, row and column axes; the output's channel block index is zero. -/
theorem idx_facts : ∀ t : Fin cfg0.N,
    win0_0.index t (0 : Fin 5) = win0_2.index t (0 : Fin 3) ∧ win0_0.index t (1 : Fin 5) = win0_2.index t (1 : Fin 3)
    ∧ win0_0.index t (2 : Fin 5) = 0 ∧ win0_0.index t (3 : Fin 5) = 0 ∧ win0_0.index t (4 : Fin 5) = 0
    ∧ win0_1.index t (0 : Fin 5) = win0_2.index t (0 : Fin 3) ∧ win0_1.index t (1 : Fin 5) = win0_2.index t (1 : Fin 3)
    ∧ win0_1.index t (2 : Fin 5) = 0 ∧ win0_1.index t (3 : Fin 5) = 0 ∧ win0_1.index t (4 : Fin 5) = 0
    ∧ win0_2.index t (2 : Fin 3) = 0 :=
  (by decide +kernel : ∀ t : Fin grid0.N, _)

/-- Every (stack, tile) is some grid point's output block. -/
theorem idx_onto : ∀ (q0 : Fin 5) (q1 : Fin 2), ∃ t : Fin cfg0.N, win0_2.index t = ![q0.val, q1.val, 0] :=
  (by decide +kernel : ∀ (q0 : Fin 5) (q1 : Fin 2), ∃ t : Fin grid0.N, win0_2.index t = ![q0.val, q1.val, 0])

/-- What grid point `t` writes back is its block of the mean squared differences of the two argument arrays as the
    region finds them. -/
theorem flushed_eq (c : Dev nD) (t : Fin cfg0.N) :
    (dats m 0 c).flushed 2 t = ((cfg0.win 2).blk t).view.read (Elt Ideal) (meanSq (V m c main_arg0) (V m c main_arg1)) := by
  show (cfg0.win 2).cut (grid0.coords t) ((dats m 0 c).after 2 t) = _
  rw [after0_2]
  unfold out0_2
  rw [View.canon_unit_zero zeros3]
  simp only [View.ld_unit_zero (S := S1x8x11x128x128) zeros5]
  obtain ⟨e0, e1, e2, e3, e4, f0, f1, f2, f3, f4, g2⟩ := idx_facts t
  funext y
  show k0_pay1 (F := Ideal) (iblk m c 0 t) (iblk m c 1 t) y = meanSq (V m c main_arg0) (V m c main_arg1) (((cfg0.win 2).blk t).view.emb y)
  have hy0 : (y 0).val < 1 := (y 0).isLt
  refine stored_eq_cell (V m c main_arg0) (V m c main_arg1) (iblk m c 0 t) (iblk m c 1 t) y (((cfg0.win 2).blk t).view.emb y) ?_ ?_
  · intro b c' p q hb hc
    show V m c main_arg0 (((cfg0.win 0).blk t).view.emb (ix5 (0 : Fin 1) b c' p q)) = V m c main_arg0 _
    refine congrArg (V m c main_arg0) ?_
    funext a; apply Fin.ext
    match a with
    | ⟨0, _⟩ => show win0_0.index t (0 : Fin 5) * 1 + 1 * 0 = win0_2.index t (0 : Fin 3) * 1 + 1 * (y 0).val; omega
    | ⟨1, _⟩ => show win0_0.index t (1 : Fin 5) * 8 + 1 * b.val = win0_2.index t (1 : Fin 3) * 8 + 1 * (y 1).val; omega
    | ⟨2, _⟩ => show win0_0.index t (2 : Fin 5) * 11 + 1 * c'.val = win0_2.index t (2 : Fin 3) * 11 + 1 * (y 2).val; omega
    | ⟨3, _⟩ => show win0_0.index t (3 : Fin 5) * 128 + 1 * p.val = p.val; omega
    | ⟨4, _⟩ => show win0_0.index t (4 : Fin 5) * 128 + 1 * q.val = q.val; omega
  · intro b c' p q hb hc
    show V m c main_arg1 (((cfg0.win 1).blk t).view.emb (ix5 (0 : Fin 1) b c' p q)) = V m c main_arg1 _
    refine congrArg (V m c main_arg1) ?_
    funext a; apply Fin.ext
    match a with
    | ⟨0, _⟩ => show win0_1.index t (0 : Fin 5) * 1 + 1 * 0 = win0_2.index t (0 : Fin 3) * 1 + 1 * (y 0).val; omega
    | ⟨1, _⟩ => show win0_1.index t (1 : Fin 5) * 8 + 1 * b.val = win0_2.index t (1 : Fin 3) * 8 + 1 * (y 1).val; omega
    | ⟨2, _⟩ => show win0_1.index t (2 : Fin 5) * 11 + 1 * c'.val = win0_2.index t (2 : Fin 3) * 11 + 1 * (y 2).val; omega
    | ⟨3, _⟩ => show win0_1.index t (3 : Fin 5) * 128 + 1 * p.val = p.val; omega
    | ⟨4, _⟩ => show win0_1.index t (4 : Fin 5) * 128 + 1 * q.val = q.val; omega

/-- A cell is in point `t`'s output block iff each coordinate is in the block's range on its axis. -/
theorem mem_blk (t : Fin cfg0.N) (i : S5x16x11.Idx) :
    i ∈ ((cfg0.win 2).blk t).view.set ↔ ∀ a : Fin 3, win0_2.index t a * S1x8x11.size a ≤ (i a).val ∧ (i a).val < win0_2.index t a * S1x8x11.size a + S1x8x11.size a := by
  show i ∈ ((View.whole main_v0).slice (win0_2.rect t)).set ↔ _
  rw [View.set_slice_whole, Rect.mem_set_unit]
  exact Iff.rfl

/-- The ten output blocks cover the array: cell (s, b, c) is in the block of the point at (s, b / 8). -/
theorem cover (i : S5x16x11.Idx) : ∃ t : Fin cfg0.N, (cfg0.win 2).flush t = true ∧ i ∈ ((cfg0.win 2).blk t).view.set := by
  have hi0 : (i 0).val < 5 := (i 0).isLt
  have hi1 : (i 1).val < 16 := (i 1).isLt
  have hi2 : (i 2).val < 11 := (i 2).isLt
  obtain ⟨t, ht⟩ := idx_onto ⟨(i 0).val, hi0⟩ ⟨(i 1).val / 8, by omega⟩
  have q0 : win0_2.index t (0 : Fin 3) = (i 0).val := congrFun ht 0
  have q1 : win0_2.index t (1 : Fin 3) = (i 1).val / 8 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 11 ≤ (i 2).val ∧ (i 2).val < win0_2.index t (2 : Fin 3) * 11 + 11; omega

/-- The output array after the run: the mean squared differences of the two argument arrays. -/
theorem region_array (c : Dev nD) :
    (dats m 0 c).arrAt 2 cfg0.N = meanSq (m ((c : Thread nD τ).loc main_arg0)) (m ((c : Thread nD τ).loc main_arg1)) :=
  (dats m 0 c).arrAt_eq_of_cover 2 _ (fun t _ => flushed_eq m c t) cover

end Cert.KernelIdeal.HeatValue

end
-- ==== Proof.Results.lean ====
/-
  The two results, each as ONE function of the argument arrays on the extended reals.

  * `heatLoss a0 a1` : [16, 5] — the per-cell means `meanSq a0 a1` summed over the 11 channels from the float zero,
    then transposed to batch × stacks.
  * `labelLoss a2 a3` : [16, 5] — the label array [16, 11, 7] broadcast along the stacks, subtracted from the
    predictions [5, 16, 11, 7], squared, summed over classes and features from the float zero, transposed.

  Both programs end in exactly these host operations; they differ only in how the per-cell means are reached.
-/
import proofs.«116545_j51866025066626_2_alg».proof.Proof.MeanSquare
import Idealize.ShloMosaic.PureOps.Ideal

noncomputable section

namespace Cert.HeatLoss

open Idealize.ShloMosaic

/-- stacks × batch, and its transpose. -/
abbrev Pairs : Shape := ⟨2, ![5, 16]⟩
abbrev PairsT : Shape := ⟨2, ![16, 5]⟩
/-- The rank-zero shape of a host scalar. -/
abbrev Scalar0 : Shape := ⟨0, ![]⟩
/-- The label predictions' shape (stacks × batch × classes × features) and the labels' (batch × classes × features). -/
abbrev Preds : Shape := ⟨4, ![5, 16, 11, 7]⟩
abbrev Labels : Shape := ⟨3, ![16, 11, 7]⟩
abbrev Labels1 : Shape := ⟨4, ![1, 16, 11, 7]⟩

/-- The sum over the channel axis of a [5, 16, 11] array, from the float zero, transposed to [16, 5]. -/
def channelSumT (P : FVec Ideal Cells .f32) : FVec Ideal PairsT .f32 :=
  transpose PairsT [1, 0]
    (Host.reduceAdd (F := Ideal) (axes := [2]) (t := Pairs) P (constant (F := Ideal) Scalar0 .f32 0x00000000#32))

/-- The first result: per (batch, stack), the sum over channels of the mean squared heat-map difference. -/
def heatLoss (a0 a1 : Maps.Idx → EReal) : FVec Ideal PairsT .f32 := channelSumT (meanSq a0 a1)

/-- The second result: per (batch, stack), the sum over classes and features of the squared label difference. -/
def labelLoss (a2 : FVec Ideal Preds .f32) (a3 : FVec Ideal Labels .f32) : FVec Ideal PairsT .f32 :=
  transpose PairsT [1, 0]
    (Host.reduceAdd (F := Ideal) (axes := [2, 3]) (t := Pairs)
      (mulf (subf a2 (broadcastInDim Preds ![0, 1, 2, 3] (by decide) (broadcastInDim Labels1 ![1, 2, 3] (by decide) a3)))
        (subf a2 (broadcastInDim Preds ![0, 1, 2, 3] (by decide) (broadcastInDim Labels1 ![1, 2, 3] (by decide) a3))))
      (constant (F := Ideal) Scalar0 .f32 0x00000000#32))

end Cert.HeatLoss

end
-- ==== Proof.KernelRun.lean ====
/-
  The kernel program's run, read.  After the region its output array holds the per-cell means (`region_array`);
  the host lines after the region sum it over channels and transpose it, and compute the label loss from the two
  label arguments, which no region touches.  So every weakly fair execution ends with the first result at
  `heatLoss` and the second at `labelLoss` of the argument arrays, the arguments unchanged.
-/
import proofs.«116545_j51866025066626_2_alg».proof.Proof.Gen.KernelIdeal.Frame
import proofs.«116545_j51866025066626_2_alg».proof.Proof.KernelArray
import proofs.«116545_j51866025066626_2_alg».proof.Proof.Results
import Idealize.ShloMosaic.Lib.Pipeline.Value
import Idealize.ShloMosaic.Lib.StableHlo.Run

noncomputable section

namespace Cert.KernelIdeal.HeatValue

open Idealize.ShloMosaic Idealize.ShloMosaic.TcCoe Idealize.SL.Sem
open Cert.KernelIdeal Cert.KernelIdeal.Gen Cert.HeatLoss

variable (m : (ℓ : Loc nD τ sig) → Buf (Elt Ideal) ℓ) (ρ : Dev nD → PrngReg)

/-- What the host lines after the region read at the region's output array: the per-cell means. -/
theorem region_in_tail (c : Dev nD) :
    Pipeline.withArrays (cfgs 0).spec c (V0 m c) (fun w => (dats m 0 c).arrAt w (cfgs 0).N) (Proc.devRef .tc main_v0)
      = meanSq (m ((c : Thread nD τ).loc main_arg0)) (m ((c : Thread nD τ).loc main_arg1)) :=
  (Pipeline.withArrays_arr spec0 launch0.win.arr_inj c _ _ 2).trans (region_array m c)

/-- … and at the two label arguments: their launch contents. -/
theorem arg2_in_tail (c : Dev nD) :
    Pipeline.withArrays (cfgs 0).spec c (V0 m c) (fun w => (dats m 0 c).arrAt w (cfgs 0).N) (Proc.devRef .tc main_arg2)
      = m ((c : Thread nD τ).loc main_arg2) :=
  (Pipeline.withArrays_of_ne _ c (V0 m c) _ main_arg2 (by exact (by decide : ∀ w, Pipeline.arrRef spec0 w ≠ main_arg2))).trans
    (V_main_arg2 m c)
theorem arg3_in_tail (c : Dev nD) :
    Pipeline.withArrays (cfgs 0).spec c (V0 m c) (fun w => (dats m 0 c).arrAt w (cfgs 0).N) (Proc.devRef .tc main_arg3)
      = m ((c : Thread nD τ).loc main_arg3) :=
  (Pipeline.withArrays_of_ne _ c (V0 m c) _ main_arg3 (by exact (by decide : ∀ w, Pipeline.arrRef spec0 w ≠ main_arg3))).trans
    (V_main_arg3 m c)

/-- The first result after the host lines: the channel sums of the per-cell means, transposed. -/
theorem tail_heat (c : Dev nD) :
    Pipeline.afterTail₀ cfgs (dats m) 0 (V0 m) [hostOps1] c main_v2
      = heatLoss (m ((c : Thread nD τ).loc main_arg0)) (m ((c : Thread nD τ).loc main_arg1)) := by
  unfold Pipeline.afterTail₀
  show StableHlo.after hostOps1 _ (Proc.devRef .tc main_v2) = _
  after_results
  rw [region_in_tail m c]
  rfl

/-- The second result after the host lines: the label loss of the two label arguments. -/
theorem tail_labels (c : Dev nD) :
    Pipeline.afterTail₀ cfgs (dats m) 0 (V0 m) [hostOps1] c main_v8
      = labelLoss (m ((c : Thread nD τ).loc main_arg2)) (m ((c : Thread nD τ).loc main_arg3)) := by
  unfold Pipeline.afterTail₀
  show StableHlo.after hostOps1 _ (Proc.devRef .tc main_v8) = _
  after_results
  rw [arg2_in_tail m c, arg3_in_tail m c]
  rfl

/-- The kernel program's run with both results named and the arguments kept. -/
theorem run : θ_run defs (onTc (τ := τ) (main (F := Ideal))) ⟨m, fun _ => 0, ρ⟩ fun r => ∀ c : Dev nD,
      r.2.mem ((c.tc : Thread nD τ).loc main_v2) = heatLoss (m ((c.tc : Thread nD τ).loc main_arg0)) (m ((c.tc : Thread nD τ).loc main_arg1))
      ∧ r.2.mem ((c.tc : Thread nD τ).loc main_v8) = labelLoss (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v2 (Pipeline.mem_restRefs_of main_v2 (by decide) (by decide))).trans (tail_heat m c),
      ((h c).2 main_v8 (Pipeline.mem_restRefs_of main_v8 (by decide) (by decide))).trans (tail_labels m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.HeatValue

end
-- ==== Proof.ReferenceCell.lean ====
/-
  The reference's array of per-cell means.  It subtracts and squares the two whole arrays, sums over the last two
  axes at once from the float zero, and divides every cell by the float 16384 (a broadcast scalar): at the ideal
  values that array is `meanSq` of the two arguments, cell by cell.
-/
import proofs.«116545_j51866025066626_2_alg».proof.Proof.Gen.ReferenceIdeal.Read
import proofs.«116545_j51866025066626_2_alg».proof.Proof.LibSumLastTwo
import proofs.«116545_j51866025066626_2_alg».proof.Proof.MeanSquare
import Idealize.ShloMosaic.Lib.ValueIdx

noncomputable section

namespace Cert.ReferenceIdeal.HeatValue

open Idealize.ShloMosaic Idealize.ShloMosaic.ValueIdx Cert.ReferenceIdeal Cert.ReferenceIdeal.Gen Cert.ReferenceIdeal.Read

/-- The reference's quotient stage — the sum over rows and columns of the squared difference, from the float zero,
    over the float 16384 — is the array of mean squared differences. -/
theorem mean_stage_eq (x0 x1 : (⟨S5x16x11x128x128, .f32⟩ : BufTy).Contents (Elt Ideal)) :
    val_main_v4 (F := Ideal) x0 x1 = Cert.HeatLoss.meanSq x0 x1 := by
  funext j
  obtain ⟨s, b, c, rfl⟩ : ∃ (s : Fin 5) (b : Fin 16) (c : Fin 11), j = ix3 s b c := ⟨j 0, j 1, j 2, eq_ix3 j⟩
  rw [val_main_v4_apply, val_main_v3_apply, val_main_cst_0_apply]
  unfold val_main_v2
  simp only [Host.reduceAdd, Ideal.hostReduceAdd_def, Ideal.hostDivf_def, Ideal.ofBits_def]
  rw [Cert.LibSumLastTwo.hostReduceAdd_last2]
  exact Cert.HeatLoss.total_div_eq_cell x0 x1 s b c

end Cert.ReferenceIdeal.HeatValue

end
-- ==== Proof.ReferenceResults.lean ====
/-
  The reference's two results are the same two functions of the arguments: its first result sums the per-cell means
  (`mean_stage_eq`) over channels and transposes; its second is the label loss, operation for operation.
-/
import proofs.«116545_j51866025066626_2_alg».proof.Proof.Gen.ReferenceIdeal.Read
import proofs.«116545_j51866025066626_2_alg».proof.Proof.ReferenceCell
import proofs.«116545_j51866025066626_2_alg».proof.Proof.Results

noncomputable section

namespace Cert.ReferenceIdeal.HeatValue

open Idealize.ShloMosaic Cert.ReferenceIdeal Cert.ReferenceIdeal.Gen Cert.ReferenceIdeal.Read Cert.HeatLoss

/-- The reference's first result is `heatLoss` of the two heat-map arrays. -/
theorem heat_result_eq (x0 x1 : (⟨S5x16x11x128x128, .f32⟩ : BufTy).Contents (Elt Ideal)) :
    val_main_v6 (F := Ideal) x0 x1 = heatLoss x0 x1 := by
  unfold val_main_v6 val_main_v5
  rw [mean_stage_eq]
  rfl

/-- The reference's second result is `labelLoss` of the two label arrays. -/
theorem label_result_eq (x2 : (⟨S5x16x11x7, .f32⟩ : BufTy).Contents (Elt Ideal)) (x3 : (⟨S16x11x7, .f32⟩ : BufTy).Contents (Elt Ideal)) :
    val_main_v12 (F := Ideal) x2 x3 = labelLoss x2 x3 := rfl

end Cert.ReferenceIdeal.HeatValue

end
-- ==== Proof.lean ====
/-
  The heat-map loss and the label loss of a stacked-hourglass head: a kernel that tiles (stack, batch tile) against
  its jnp reference, equal at the ideal values.

  Per (stack, batch, channel) cell the kernel sums the squared difference of the two 128 × 128 maps — rows first,
  then the column sums — and multiplies by the float 2⁻¹⁴; the reference sums over both axes at once and divides by
  the float 16384.  A finite sum of extended reals does not depend on its order, and dividing by the real 2¹⁴ is
  multiplying by its reciprocal on every extended real, so both are the cell's mean `meanSq` (Proof/MeanSquare.lean)
  with no finiteness assumption.  Both programs then sum the cells over the channels and transpose (`heatLoss`), and
  compute the label loss by the same host operations (`labelLoss`, Proof/Results.lean).

  Kernel side: one block element of the body's store (Proof/KernelCell.lean), the region's output array from its ten
  blocks (Proof/KernelArray.lean), the host lines after the region (Proof/KernelRun.lean).  Reference side: the
  generated run, read stage by stage (Proof/ReferenceCell.lean, Proof/ReferenceResults.lean).  The frames are the
  generated ones; the idealization rewrote nothing, so `preserves` is trivial.
-/
import proofs.«116545_j51866025066626_2_alg».proof.Defs
import proofs.«116545_j51866025066626_2_alg».proof.Proof.Gen.Kernel
import proofs.«116545_j51866025066626_2_alg».proof.Proof.Gen.Kernel.Skeleton
import proofs.«116545_j51866025066626_2_alg».proof.Proof.Gen.Kernel.Launch
import proofs.«116545_j51866025066626_2_alg».proof.Proof.Gen.Kernel.Points
import proofs.«116545_j51866025066626_2_alg».proof.Proof.Gen.Kernel.Frame
import proofs.«116545_j51866025066626_2_alg».proof.Proof.Gen.KernelIdeal
import proofs.«116545_j51866025066626_2_alg».proof.Proof.Gen.KernelIdeal.Skeleton
import proofs.«116545_j51866025066626_2_alg».proof.Proof.Gen.KernelIdeal.Launch
import proofs.«116545_j51866025066626_2_alg».proof.Proof.Gen.KernelIdeal.Points
import proofs.«116545_j51866025066626_2_alg».proof.Proof.Gen.KernelIdeal.Frame
import proofs.«116545_j51866025066626_2_alg».proof.Proof.Gen.ReferenceIdeal
import proofs.«116545_j51866025066626_2_alg».proof.Proof.Gen.Pre_finite_inputs
import proofs.«116545_j51866025066626_2_alg».proof.Proof.Gen.ReferenceIdeal.Run
import proofs.«116545_j51866025066626_2_alg».proof.Proof.Gen.ReferenceIdeal.Read
import proofs.«116545_j51866025066626_2_alg».proof.Proof.KernelRun
import proofs.«116545_j51866025066626_2_alg».proof.Proof.ReferenceResults
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the results dropped. -/
theorem frame_referenceIdeal : Cert.frame_ReferenceIdeal := fun m ρ _ =>
  (θ_run Cert.ReferenceIdeal.defs _ _).mono (fun _ h c => (h c).2.2)
    (Cert.ReferenceIdeal.Value.run (F := Ideal) m ρ)

/-- The idealization rewrote no operation. -/
theorem preserves : Cert.preserves_Kernel_KernelIdeal := trivial

/-- From memories agreeing on the four arguments both programs end with the first result at `heatLoss` of the two
    heat-map arrays and the second at `labelLoss` of the two label arrays. -/
theorem algebraic : Cert.algebraic_KernelIdeal_ReferenceIdeal := by
  intro m ρ m' ρ' _ hagree
  refine ⟨fun c => Cert.HeatLoss.heatLoss (m ((c.tc : Thread Cert.KernelIdeal.nD Cert.KernelIdeal.τ).loc Cert.KernelIdeal.main_arg0))
        (m ((c.tc : Thread Cert.KernelIdeal.nD Cert.KernelIdeal.τ).loc Cert.KernelIdeal.main_arg1)),
      fun c => Cert.HeatLoss.labelLoss (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      Cert.KernelIdeal.HeatValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v6_eq, Cert.ReferenceIdeal.HeatValue.heat_result_eq, (hagree c).1, (hagree c).2.1]
  · rw [Cert.ReferenceIdeal.Read.val_main_v12_eq, Cert.ReferenceIdeal.HeatValue.label_result_eq, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
